-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1200000 : Shape := ⟨2, ![2, 1200000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg6 : FVec F S64 .f32) (main_arg7 : FVec F S64x64 .f32) (main_arg8 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S2x1200000 32) (main_arg2 : IVec S100000 32) (main_arg3 : FVec F S128x64 .f32) (main_arg4 : FVec F S64 .f32) (main_arg5 : FVec F S64x64 .f32) (main_arg6 : FVec F S64 .f32) (main_arg7 : FVec F S64x64 .f32) (main_arg8 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_v13 main_v16
-- ==== Kernel.lean ====
abbrev S100000x128 : Shape := ⟨2, ![100000, 128]⟩
abbrev S2x1200000 : Shape := ⟨2, ![2, 1200000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S100000x64 : Shape := ⟨2, ![100000, 64]⟩
abbrev S5000x128 : Shape := ⟨2, ![5000, 128]⟩
abbrev S5000x64 : Shape := ⟨2, ![5000, 64]⟩
abbrev S1x1200000 : Shape := ⟨2, ![1, 1200000]⟩
abbrev S1200000 : Shape := ⟨1, ![1200000]⟩
abbrev S1300000 : Shape := ⟨1, ![1300000]⟩
abbrev S_ : Shape := ⟨0, ![]⟩
abbrev S1300000x1 : Shape := ⟨2, ![1300000, 1]⟩
abbrev S1300000x64 : Shape := ⟨2, ![1300000, 64]⟩
abbrev S1x64 : Shape := ⟨2, ![1, 64]⟩

abbrev nBuf : Space → Nat
  | .hbm => 70
  | .vmem => 13
  | .smem => 0
  | _ => 0

abbrev bufTy : (tb : Table) → Fin (tcTables nBuf tb) → BufTy
  | .hbm, ⟨0, _⟩ => ⟨S100000x128, .f32⟩
  | .hbm, ⟨1, _⟩ => ⟨S2x1200000, .i32⟩
  | .hbm, ⟨2, _⟩ => ⟨S100000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S100000x64, .f32⟩
  | .hbm, ⟨10, _⟩ => ⟨S100000, .i32⟩
  | .hbm, ⟨11, _⟩ => ⟨S1x1200000, .i32⟩
  | .hbm, ⟨12, _⟩ => ⟨S1200000, .i32⟩
  | .hbm, ⟨13, _⟩ => ⟨S1300000, .i32⟩
  | .hbm, ⟨14, _⟩ => ⟨S1x1200000, .i32⟩
  | .hbm, ⟨15, _⟩ => ⟨S1200000, .i32⟩
  | .hbm, ⟨16, _⟩ => ⟨S1300000, .i32⟩
  | .hbm, ⟨17, _⟩ => ⟨S_, .f32⟩
  | .hbm, ⟨18, _⟩ => ⟨S1300000, .f32⟩
  | .hbm, ⟨19, _⟩ => ⟨S_, .f32⟩
  | .hbm, ⟨20, _⟩ => ⟨S100000, .f32⟩
  | .hbm, ⟨21, _⟩ => ⟨S1300000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1300000, .i32⟩
  | .hbm, ⟨33, _⟩ => ⟨S1300000, .i1⟩
  | .hbm, ⟨34, _⟩ => ⟨S_, .i32⟩
  | .hbm, ⟨35, _⟩ => ⟨S1300000, .i32⟩
  | .hbm, ⟨36, _⟩ => ⟨S1300000, .i32⟩
  | .hbm, ⟨37, _⟩ => ⟨S1300000, .i32⟩
  | .hbm, ⟨38, _⟩ => ⟨S1300000x1, .i32⟩
  | .hbm, ⟨39, _⟩ => ⟨S1300000, .f32⟩
  | .hbm, ⟨40, _⟩ => ⟨S_, .i32⟩
  | .hbm, ⟨41, _⟩ => ⟨S1300000, .i32⟩
  | .hbm, ⟨42, _⟩ => ⟨S1300000, .i1⟩
  | .hbm, ⟨43, _⟩ => ⟨S_, .i32⟩
  | .hbm, ⟨44, _⟩ => ⟨S1300000, .i32⟩
  | .hbm, ⟨45, _⟩ => ⟨S1300000, .i32⟩
  | .hbm, ⟨46, _⟩ => ⟨S1300000, .i32⟩
  | .hbm, ⟨47, _⟩ => ⟨S1300000x1, .i32⟩
  | .hbm, ⟨48, _⟩ => ⟨S1300000, .f32⟩
  | .hbm, ⟨49, _⟩ => ⟨S1300000, .f32⟩
  | .hbm, ⟨50, _⟩ => ⟨S_, .i32⟩
  | .hbm, ⟨51, _⟩ => ⟨S1300000, .i32⟩
  | .hbm, ⟨52, _⟩ => ⟨S1300000, .i1⟩
  | .hbm, ⟨53, _⟩ => ⟨S_, .i32⟩
  | .hbm, ⟨54, _⟩ => ⟨S1300000, .i32⟩
  | .hbm, ⟨55, _⟩ => ⟨S1300000, .i32⟩
  | .hbm, ⟨56, _⟩ => ⟨S1300000, .i32⟩
  | .hbm, ⟨57, _⟩ => ⟨S1300000x1, .i32⟩
  | .hbm, ⟨58, _⟩ => ⟨S1300000x64, .f32⟩
  | .hbm, ⟨59, _⟩ => ⟨S1300000x1, .f32⟩
  | .hbm, ⟨60, _⟩ => ⟨S1300000x64, .f32⟩
  | .hbm, ⟨61, _⟩ => ⟨S1300000x64, .f32⟩
  | .hbm, ⟨62, _⟩ => ⟨S_, .f32⟩
  | .hbm, ⟨63, _⟩ => ⟨S100000x64, .f32⟩
  | .hbm, ⟨64, _⟩ => ⟨S1300000x1, .i32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S100000x64, .f32⟩
  | .hbm, ⟨69, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S64x64, .f32⟩
  | .local _ .vmem, ⟨8, _⟩ => ⟨S64, .f32⟩
  | .local _ .vmem, ⟨9, _⟩ => ⟨S64x64, .f32⟩
  | .local _ .vmem, ⟨10, _⟩ => ⟨S64, .f32⟩
  | .local _ .vmem, ⟨11, _⟩ => ⟨S5000x64, .f32⟩
  | .local _ .vmem, ⟨12, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg5_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem5_1 : DmaSem sig := 12

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  slices_S2x1200000_S1x1200000_0_0 : S2x1200000.Slices ![0, 0] S1x1200000
  shapeCasts_S1x1200000_S1200000 : S1x1200000.ShapeCasts S1200000
  concatenates_S1200000_S100000_S1300000_d0 : Shape.Concatenates [S1200000, S100000] S1300000 0
  slices_S2x1200000_S1x1200000_1_0 : S2x1200000.Slices ![1, 0] S1x1200000
  bcast_S_S1300000 : S_.BroadcastsInDim S1300000 (![] : Fin 0 → Fin S1300000.rank)
  bcast_S_S100000 : S_.BroadcastsInDim S100000 (![] : Fin 0 → Fin S100000.rank)
  bcast_S1300000_S1300000x1_0 : S1300000.BroadcastsInDim S1300000x1 (![0] : Fin 1 → Fin S1300000x1.rank)
  bcast_S1300000x1_S1300000x64_0_1 : S1300000x1.BroadcastsInDim S1300000x64 (![0, 1] : Fin 2 → Fin S1300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  dot_S5000x128_S128x64_S5000x64_1_0_0_1_n_n_wf : DotDims.WF S5000x128 S128x64 S5000x64 [1] [0] [0] [1] [] []
  scatter_S100000_S1300000x1_S1300000_n_0_0_1_wf : ScatterDims.WF S100000 S1300000x1 S1300000 [] [0] [0] 1
  gather_S100000_S1300000x1_S1300000_n_0_n_n_0_1_1_wf : GatherDims.WF S100000 S1300000x1 S1300000 [] [0] [] [0] [] 1 ![1]
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)

variable [Facts₀]

def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def gather_S100000_S1300000x1_S1300000_n_0_n_n_0_1_1 : GatherDims S100000 S1300000x1 S1300000 where
  offsetDims := []
  collapsedSliceDims := [0]
  operandBatchingDims := []
  startIndicesBatchingDims := []
  startIndexMap := [0]
  indexVectorDim := 1
  sliceSizes := ![1]
  wf := gather_S100000_S1300000x1_S1300000_n_0_n_n_0_1_1_wf
def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v47) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1200000 : Shape := ⟨2, ![2, 1200000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S1x1200000 : Shape := ⟨2, ![1, 1200000]⟩
abbrev S1200000 : Shape := ⟨1, ![1200000]⟩
abbrev S1300000 : Shape := ⟨1, ![1300000]⟩
abbrev S_ : Shape := ⟨0, ![]⟩
abbrev S1300000x1 : Shape := ⟨2, ![1300000, 1]⟩
abbrev S100000x64 : Shape := ⟨2, ![100000, 64]⟩
abbrev S1300000x64 : Shape := ⟨2, ![1300000, 64]⟩
abbrev S1x64 : Shape := ⟨2, ![1, 64]⟩

abbrev nBuf : Space → Nat
  | .hbm => 77
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1200000, .i32⟩
  | .hbm, ⟨2, _⟩ => ⟨S100000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S100000, .i32⟩
  | .hbm, ⟨10, _⟩ => ⟨S1x1200000, .i32⟩
  | .hbm, ⟨11, _⟩ => ⟨S1200000, .i32⟩
  | .hbm, ⟨12, _⟩ => ⟨S1300000, .i32⟩
  | .hbm, ⟨13, _⟩ => ⟨S1x1200000, .i32⟩
  | .hbm, ⟨14, _⟩ => ⟨S1200000, .i32⟩
  | .hbm, ⟨15, _⟩ => ⟨S1300000, .i32⟩
  | .hbm, ⟨16, _⟩ => ⟨S_, .f32⟩
  | .hbm, ⟨17, _⟩ => ⟨S1300000, .f32⟩
  | .hbm, ⟨18, _⟩ => ⟨S_, .f32⟩
  | .hbm, ⟨19, _⟩ => ⟨S100000, .f32⟩
  | .hbm, ⟨20, _⟩ => ⟨S1300000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1300000, .i32⟩
  | .hbm, ⟨32, _⟩ => ⟨S1300000, .i1⟩
  | .hbm, ⟨33, _⟩ => ⟨S_, .i32⟩
  | .hbm, ⟨34, _⟩ => ⟨S1300000, .i32⟩
  | .hbm, ⟨35, _⟩ => ⟨S1300000, .i32⟩
  | .hbm, ⟨36, _⟩ => ⟨S1300000, .i32⟩
  | .hbm, ⟨37, _⟩ => ⟨S1300000x1, .i32⟩
  | .hbm, ⟨38, _⟩ => ⟨S1300000, .f32⟩
  | .hbm, ⟨39, _⟩ => ⟨S_, .i32⟩
  | .hbm, ⟨40, _⟩ => ⟨S1300000, .i32⟩
  | .hbm, ⟨41, _⟩ => ⟨S1300000, .i1⟩
  | .hbm, ⟨42, _⟩ => ⟨S_, .i32⟩
  | .hbm, ⟨43, _⟩ => ⟨S1300000, .i32⟩
  | .hbm, ⟨44, _⟩ => ⟨S1300000, .i32⟩
  | .hbm, ⟨45, _⟩ => ⟨S1300000, .i32⟩
  | .hbm, ⟨46, _⟩ => ⟨S1300000x1, .i32⟩
  | .hbm, ⟨47, _⟩ => ⟨S1300000, .f32⟩
  | .hbm, ⟨48, _⟩ => ⟨S1300000, .f32⟩
  | .hbm, ⟨49, _⟩ => ⟨S100000x64, .f32⟩
  | .hbm, ⟨50, _⟩ => ⟨S_, .i32⟩
  | .hbm, ⟨51, _⟩ => ⟨S1300000, .i32⟩
  | .hbm, ⟨52, _⟩ => ⟨S1300000, .i1⟩
  | .hbm, ⟨53, _⟩ => ⟨S_, .i32⟩
  | .hbm, ⟨54, _⟩ => ⟨S1300000, .i32⟩
  | .hbm, ⟨55, _⟩ => ⟨S1300000, .i32⟩
  | .hbm, ⟨56, _⟩ => ⟨S1300000, .i32⟩
  | .hbm, ⟨57, _⟩ => ⟨S1300000x1, .i32⟩
  | .hbm, ⟨58, _⟩ => ⟨S1300000x64, .f32⟩
  | .hbm, ⟨59, _⟩ => ⟨S1300000x1, .f32⟩
  | .hbm, ⟨60, _⟩ => ⟨S1300000x64, .f32⟩
  | .hbm, ⟨61, _⟩ => ⟨S1300000x64, .f32⟩
  | .hbm, ⟨62, _⟩ => ⟨S_, .f32⟩
  | .hbm, ⟨63, _⟩ => ⟨S100000x64, .f32⟩
  | .hbm, ⟨64, _⟩ => ⟨S1300000x1, .i32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S100000x64, .f32⟩
  | .hbm, ⟨69, _⟩ => ⟨S100000x64, .f32⟩
  | .hbm, ⟨70, _⟩ => ⟨S1x64, .f32⟩
  | .hbm, ⟨71, _⟩ => ⟨S100000x64, .f32⟩
  | .hbm, ⟨72, _⟩ => ⟨S100000x64, .f32⟩
  | .hbm, ⟨73, _⟩ => ⟨S100000x64, .f32⟩
  | .hbm, ⟨74, _⟩ => ⟨S1x64, .f32⟩
  | .hbm, ⟨75, _⟩ => ⟨S100000x64, .f32⟩
  | .hbm, ⟨76, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  concatenates_S1200000_S100000_S1300000_d0 : Shape.Concatenates [S1200000, S100000] S1300000 0
  slices_S2x1200000_S1x1200000_1_0 : S2x1200000.Slices ![1, 0] S1x1200000
  bcast_S_S1300000 : S_.BroadcastsInDim S1300000 (![] : Fin 0 → Fin S1300000.rank)
  bcast_S_S100000 : S_.BroadcastsInDim S100000 (![] : Fin 0 → Fin S100000.rank)
  bcast_S1300000_S1300000x1_0 : S1300000.BroadcastsInDim S1300000x1 (![0] : Fin 1 → Fin S1300000x1.rank)
  bcast_S1300000x1_S1300000x64_0_1 : S1300000x1.BroadcastsInDim S1300000x64 (![0, 1] : Fin 2 → Fin S1300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1300000x1_S1300000_n_0_0_1_wf : ScatterDims.WF S100000 S1300000x1 S1300000 [] [0] [0] 1
  gather_S100000_S1300000x1_S1300000_n_0_n_n_0_1_1_wf : GatherDims.WF S100000 S1300000x1 S1300000 [] [0] [] [0] [] 1 ![1]
  dot_S100000x128_S128x64_S100000x64_1_0_0_1_n_n_wf : DotDims.WF S100000x128 S128x64 S100000x64 [1] [0] [0] [1] [] []
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1
  dot_S100000x64_S64x64_S100000x64_1_0_0_1_n_n_wf : DotDims.WF S100000x64 S64x64 S100000x64 [1] [0] [0] [1] [] []

variable [Facts₀]

def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def gather_S100000_S1300000x1_S1300000_n_0_n_n_0_1_1 : GatherDims S100000 S1300000x1 S1300000 where
  offsetDims := []
  collapsedSliceDims := [0]
  operandBatchingDims := []
  startIndicesBatchingDims := []
  startIndexMap := [0]
  indexVectorDim := 1
  sliceSizes := ![1]
  wf := gather_S100000_S1300000x1_S1300000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KernelRun.lean ====
/-
  The idealized kernel program's run with its RESULT named. The program is two pipelined regions with a stretch of host
  operations between them; the buffer contents at each boundary are a fold from the launch memory (the generated frame's
  `W0 … W5`). Every weakly fair execution terminates without a fault, and in the final state the result buffer holds
  the last boundary's contents `W5` at that buffer, the argument arrays what they held at launch. The run is the one
  the generated frame makes from the program's segments; what is added is that the final thread state, read against
  the final memory, also gives the result buffer.
-/
import proofs.«130672_j16157666968392_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the last
    boundary's contents, and every argument array as launched. -/
theorem run_result : θ_run defs (onTc (τ := τ) (main (F := F))) ⟨m, fun _ => 0, ρ⟩ (fun r => ∀ c : Dev nD,
      r.2.mem ((c.tc : Thread nD τ).loc main_v47) = W5 m ρ c (Proc.devRef .tc main_v47)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v47 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c)⟩)

end Cert.KernelIdeal.Hand

end
-- ==== Proof.Agg.lean ====
/-
  The neighbour aggregation both programs share, as ONE function that is never opened.

  Between the projection and the dense layers both programs run the same chain of host operations: the two rows of
  the edge list are extended by one self-loop per node; the in-degree of every node is a scatter-add of ones; its
  inverse square root (zero where the degree is zero) is gathered at both ends of every edge and multiplied into a
  per-edge weight; the projected features are gathered at the source of every edge, scaled by the edge's weight,
  scatter-added at its destination; the layer's bias is added to every row. `agg h e b` is that chain applied to
  projected features `h`, edge list `e` and bias `b`: the operations' own terms, composed. The two programs are
  compared by showing that they feed it the same `h`, `e` and `b`.
-/
import proofs.«130672_j16157666968392_1_alg».proof.Proof.RefReadP

noncomputable section

namespace Cert.Gcn

open Cert.ReferenceIdeal Cert.ReferenceIdeal.Gen Cert.ReferenceIdeal.ReadP Idealize.ShloMosaic Idealize.ShloMosaic.TcCoe

variable {F : FTy → Type} [FloatOps F]

/-- The shared aggregation chain, from the projected features, the edge list and the bias. -/
def agg (h : (⟨S100000x64, .f32⟩ : BufTy).Contents (Elt F)) (e : (⟨S2x1200000, .i32⟩ : BufTy).Contents (Elt F))
    (b : (⟨S64, .f32⟩ : BufTy).Contents (Elt F)) : (⟨S100000x64, .f32⟩ : BufTy).Contents (Elt F) :=
  addf (Host.scatterAdd scatter_S100000x64_S1300000x1_S1300000x64_1_0_0_1 (val_main_v41 (F := F)) (val_main_v42 (F := F) e)
      (mulf (Host.gather gather_S100000x64_S1300000x1_S1300000x64_1_0_n_n_0_1_164 h (val_main_v36 (F := F) e)) (val_main_v39 (F := F) e)))
    (val_main_v45 (F := F) b)

/-- The reference's value before its dense layers is the chain applied to its own projection. -/
theorem ref_agg (x0 : (⟨S100000x128, .f32⟩ : BufTy).Contents (Elt F)) (x1 : (⟨S2x1200000, .i32⟩ : BufTy).Contents (Elt F))
    (x3 : (⟨S128x64, .f32⟩ : BufTy).Contents (Elt F)) (x4 : (⟨S64, .f32⟩ : BufTy).Contents (Elt F)) :
    val_main_v46 (F := F) x0 x1 x3 x4 = agg (val_main_v30 (F := F) x0 x3) x1 x4 := by
  unfold val_main_v46 val_main_v43 val_main_v40 val_main_v37 agg
  rfl

end Cert.Gcn

end
-- ==== Proof.KernelHost.lean ====
/-
  The stretch of host operations between the two regions, read as the shared aggregation chain.

  After the first region the program runs 59 host operations (the self-loops, the degrees and their inverse square
  roots, the per-edge weights, the gather of projected rows, the scaling, the scatter-add, the bias) before it enters the
  second region. The buffer the second region's first window reads, after those operations, holds the shared chain
  `Cert.Gcn.agg` applied to what the first region left in its output buffer, to the edge list and to the bias; the other
  four windows' buffers are arguments no operation writes.
-/
import proofs.«130672_j16157666968392_1_alg».proof.Proof.Gen.KernelIdeal.Frame
import proofs.«130672_j16157666968392_1_alg».proof.Proof.Agg
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Hand

open Cert.KernelIdeal Cert.KernelIdeal.Gen

variable {F : FTy → Type} [FloatOps F]
variable (m : (ℓ : Loc nD τ sig) → Buf (Elt F) ℓ) (ρ : Dev nD → PrngReg)

set_option maxHeartbeats 4000000 in
/-- The second region's first input array, at its entry, is the aggregation chain of the first region's output, the
    edge list and the bias as they stand after the first region. -/
theorem host_agg (c : Dev nD) :
    W4 m ρ c (Proc.devRef .tc main_v46)
      = Cert.Gcn.agg (F := F) (W1 m ρ c (Proc.devRef .tc main_v0)) (W1 m ρ c (Proc.devRef .tc main_arg1)) (W1 m ρ c (Proc.devRef .tc main_arg4)) := by
  show StableHlo.after hostOps1_2 (StableHlo.after hostOps1_1 (StableHlo.after hostOps1 (W1 m ρ c))) (Proc.devRef .tc main_v46) = _
  generalize W1 m ρ c = W
  after_results_simp
  rfl

/-- The edge list, the layer's bias and the dense layers' weights and biases are as launched wherever they are read: no host
    operation writes them, and a region leaves the arrays of its input windows as it found them. -/
theorem W1_arg1 (c : Dev nD) : W1 m ρ c (Proc.devRef .tc main_arg1) = m ((c : Thread nD τ).loc main_arg1) :=
  W1_of_ne m ρ c main_arg1 (by decide)
theorem W1_arg4 (c : Dev nD) : W1 m ρ c (Proc.devRef .tc main_arg4) = m ((c : Thread nD τ).loc main_arg4) :=
  W1_of_ne m ρ c main_arg4 (by decide)
theorem W4_arg5 (c : Dev nD) : W4 m ρ c (Proc.devRef .tc main_arg5) = m ((c : Thread nD τ).loc main_arg5) :=
  ((W5_arr m ρ c 1).trans (((dat1 (V4 m ρ) c).arrAt_in 1 rfl _).trans (A_eq1 (V4 m ρ) c 1))).symm.trans (W5_main_arg5 m ρ c)
theorem W4_arg6 (c : Dev nD) : W4 m ρ c (Proc.devRef .tc main_arg6) = m ((c : Thread nD τ).loc main_arg6) :=
  ((W5_arr m ρ c 2).trans (((dat1 (V4 m ρ) c).arrAt_in 2 rfl _).trans (A_eq1 (V4 m ρ) c 2))).symm.trans (W5_main_arg6 m ρ c)
theorem W4_arg7 (c : Dev nD) : W4 m ρ c (Proc.devRef .tc main_arg7) = m ((c : Thread nD τ).loc main_arg7) :=
  ((W5_arr m ρ c 3).trans (((dat1 (V4 m ρ) c).arrAt_in 3 rfl _).trans (A_eq1 (V4 m ρ) c 3))).symm.trans (W5_main_arg7 m ρ c)
theorem W4_arg8 (c : Dev nD) : W4 m ρ c (Proc.devRef .tc main_arg8) = m ((c : Thread nD τ).loc main_arg8) :=
  ((W5_arr m ρ c 4).trans (((dat1 (V4 m ρ) c).arrAt_in 4 rfl _).trans (A_eq1 (V4 m ρ) c 4))).symm.trans (W5_main_arg8 m ρ c)

end Cert.KernelIdeal.Hand

end
-- ==== Proof.LibMatRead.lean ====
/-
  Two matrix products read at an index, over the extended reals, for any dimension record with the stated axes: the
  product that contracts the second axis of both operands (rows against rows), and the one that contracts the second
  axis of the left with the first of the right (rows against columns). Into a zero accumulator each is the plain sum
  over the shared axis of the products of the entries; the contraction's index type has one coordinate, and the sum is
  re-indexed by it.
-/
import Idealize.ShloMosaic.PureOps.Ideal.Laws
import Idealize.ShloMosaic.Lib.ValueIdx

noncomputable section
open scoped BigOperators
open Idealize.ShloMosaic Idealize.ShloMosaic.ValueIdx

namespace Cert.MatRead

/-- A product that contracts the second axis of both operands, into a zero accumulator, read at an index: the sum over
    the shared axis of row `a` of the left operand times row `b` of the right. -/
theorem matmul_rows_apply {m k n : Nat} {φ₁ φ₂ : FTy}
    (d : DotDims ⟨2, ![m, k]⟩ ⟨2, ![n, k]⟩ ⟨2, ![m, n]⟩)
    (hlc : d.lhsContracting = [1]) (hrc : d.rhsContracting = [1])
    (hln : d.lhsNonContracting = [0]) (hrn : d.rhsNonContracting = [0])
    (hlb : d.lhsBatch = []) (hrb : d.rhsBatch = [])
    (prec : Option ContractPrecision)
    (A : FVec Ideal ⟨2, ![m, k]⟩ φ₁) (B : FVec Ideal ⟨2, ![n, k]⟩ φ₂) (a : Fin m) (b : Fin n) :
    FloatOps.matmul d prec A B (constant ⟨2, ![m, n]⟩ .f32 0x00000000#32) (ix2 a b)
      = ∑ c : Fin k, A (ix2 a c) * B (ix2 b c) := by
  have hr1 : d.contr.rank = 1 := by rw [d.rank_contr, hlc]; rfl
  have hs : d.contr.size ⟨0, by omega⟩ = k := by
    have h := d.size_contr 0 (by rw [hlc]; exact Nat.one_pos)
    simp only [hlc] at h
    exact h
  have key0 : ∀ (i : Nat) (h : i < 2), i = 0 → ((ix2 a b ⟨i, h⟩).val : Nat) = a.val := by
    intro i h hi; subst hi; rfl
  have key1 : ∀ (i : Nat) (h : i < 2), i = 1 → ((ix2 a b ⟨i, h⟩).val : Nat) = b.val := by
    intro i h hi; subst hi; rfl
  rw [Ideal.matmul_constant_zero_apply, ← Equiv.sum_comp (contrEquiv1 d k hr1 hs).symm]
  refine Finset.sum_congr rfl fun c _ => ?_
  have c2 := contrEquiv1_symm_val d k hr1 hs c
  have l2 : d.lhsIdx (ix2 a b) ((contrEquiv1 d k hr1 hs).symm c) = ix2 a c := by
    funext ax; apply Fin.ext
    match ax with
    | ⟨0, _⟩ => simp [DotDims.lhsIdx, hlc, hln, hlb]; exact key0 _ _ (by simp [hlb, hln])
    | ⟨1, _⟩ => exact (d.lhsIdx_val_of_single hlc _ _).trans c2
  have r2 : d.rhsIdx (ix2 a b) ((contrEquiv1 d k hr1 hs).symm c) = ix2 b c := by
    funext ax; apply Fin.ext
    match ax with
    | ⟨0, _⟩ => simp [DotDims.rhsIdx, hrc, hrn, hrb]; exact key1 _ _ (by simp [hlb, hln, hrn])
    | ⟨1, _⟩ => exact (d.rhsIdx_val_of_single hrc _ _).trans c2
  rw [l2, r2]

/-- A product that contracts the second axis of the left operand with the first of the right, into a zero accumulator,
    read at an index: row `a` of the left operand times column `b` of the right. -/
theorem matmul_row_col_apply {m k n : Nat} {φ₁ φ₂ : FTy}
    (d : DotDims ⟨2, ![m, k]⟩ ⟨2, ![k, n]⟩ ⟨2, ![m, n]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (A : FVec Ideal ⟨2, ![m, k]⟩ φ₁) (B : FVec Ideal ⟨2, ![k, n]⟩ φ₂) (a : Fin m) (b : Fin n) :
    FloatOps.matmul d prec A B (constant ⟨2, ![m, n]⟩ .f32 0x00000000#32) (ix2 a b)
      = ∑ c : Fin k, A (ix2 a c) * B (ix2 c b) := by
  have hr1 : d.contr.rank = 1 := by rw [d.rank_contr, hlc]; rfl
  have hs : d.contr.size ⟨0, by omega⟩ = k := by
    have h := d.size_contr 0 (by rw [hlc]; exact Nat.one_pos)
    simp only [hlc] at h
    exact h
  have key0 : ∀ (i : Nat) (h : i < 2), i = 0 → ((ix2 a b ⟨i, h⟩).val : Nat) = a.val := by
    intro i h hi; subst hi; rfl
  have key1 : ∀ (i : Nat) (h : i < 2), i = 1 → ((ix2 a b ⟨i, h⟩).val : Nat) = b.val := by
    intro i h hi; subst hi; rfl
  rw [Ideal.matmul_constant_zero_apply, ← Equiv.sum_comp (contrEquiv1 d k hr1 hs).symm]
  refine Finset.sum_congr rfl fun c _ => ?_
  have c2 := contrEquiv1_symm_val d k hr1 hs c
  have l2 : d.lhsIdx (ix2 a b) ((contrEquiv1 d k hr1 hs).symm c) = ix2 a c := by
    funext ax; apply Fin.ext
    match ax with
    | ⟨0, _⟩ => simp [DotDims.lhsIdx, hlc, hln, hlb]; exact key0 _ _ (by simp [hlb, hln])
    | ⟨1, _⟩ => exact (d.lhsIdx_val_of_single hlc _ _).trans c2
  have r2 : d.rhsIdx (ix2 a b) ((contrEquiv1 d k hr1 hs).symm c) = ix2 c b := by
    funext ax; apply Fin.ext
    match ax with
    | ⟨0, _⟩ => exact (d.rhsIdx_val_of_single hrc _ _).trans c2
    | ⟨1, _⟩ => simp [DotDims.rhsIdx, hrc, hrn, hrb]; exact key1 _ _ (by simp [hlb, hln, hrn])
  rw [l2, r2]

end Cert.MatRead
-- ==== Proof.Payload.lean ====
/-
  What each kernel body stores, read at one entry of its block, over the extended reals.

  The first body multiplies its 5000 × 128 block of features by the whole 128 × 64 weight matrix: entry `(p, q)` is the sum
  over the 128 shared positions of row `p` of the block times column `q` of the weights (the product starts from a zero
  accumulator, and the changes of float format on the way in are the identity on extended reals).

  The second body applies two dense layers to its 5000 × 64 block: entry `(p, q)` is the sum over `k₂` of
  `(Σ_{k₁} block(p, k₁) · w1(k₁, k₂) + b1(k₂)) · w3(k₂, q)`, plus `b3(q)`. Each bias is a length-64 vector viewed as a
  1 × 64 row and repeated over the 5000 rows.
-/
import proofs.«130672_j16157666968392_1_alg».proof.Proof.Gen.KernelIdeal.Skeleton
import proofs.«130672_j16157666968392_1_alg».proof.Proof.LibMatRead
import Idealize.ShloMosaic.Lib.Pipeline.Value
import Idealize.ShloMosaic.Lib.ValueIdx
import Idealize.ShloMosaic.Lib.ValueLayout
import Idealize.ShloMosaic.PureOps.Ideal.Laws

noncomputable section
open scoped BigOperators
open Idealize.ShloMosaic Idealize.ShloMosaic.ValueIdx

namespace Cert.KernelIdeal.Hand

open Cert.KernelIdeal Cert.KernelIdeal.Gen

/-- A length-64 vector viewed as one row and repeated over 5000 rows reads, at `(p, q)`, the vector at `q`. -/
theorem bias_row_at (b : Vec Ideal S64 .f32) (p : Fin 5000) (q : Fin 64) :
    broadcastTo S5000x64 (shapeCast S1x64 b shapeCasts_S64_S1x64) broadcasts_S1x64_S5000x64 (ix2 p q) = b (ix1 q) :=
  (broadcastTo_1b_ab_apply (shapeCast S1x64 b shapeCasts_S64_S1x64) broadcasts_S1x64_S5000x64 p q).trans
    (shapeCast_a_1a_apply b shapeCasts_S64_S1x64 (0 : Fin 1) q)

/-- The first body's stored value at `(p, q)`: row `p` of the feature block against column `q` of the weights. -/
theorem pay0_at (x0 : Vec Ideal S5000x128 .f32) (x1 : Vec Ideal S128x64 .f32) (p : Fin 5000) (q : Fin 64) :
    k0_pay1 x0 x1 (ix2 p q) = ∑ k : Fin 128, x0 (ix2 p k) * x1 (ix2 k q) := by
  unfold k0_pay1
  exact Cert.MatRead.matmul_row_col_apply dot_S5000x128_S128x64_S5000x64_1_0_0_1_n_n rfl rfl rfl rfl rfl rfl none
    (truncf .bf16 x0 bitsLt_bf16_f32) (truncf .bf16 x1 bitsLt_bf16_f32) p q

/-- The first dense layer inside the second body, at `(p, k)`. -/
theorem hidden_at (v0 : Vec Ideal S5000x64 .f32) (v3 : Vec Ideal S64x64 .f32) (v6 : Vec Ideal S64 .f32) (p : Fin 5000) (k : Fin 64) :
    addf (matmul dot_S5000x64_S64x64_S5000x64_1_0_0_1_n_n none
        (truncf .bf16 (shapeCast S5000x64 v0 shapeCasts_S5000x64_S5000x64) bitsLt_bf16_f32 : FVec Ideal S5000x64 .bf16)
        (truncf .bf16 v3 bitsLt_bf16_f32 : FVec Ideal S64x64 .bf16) (constant S5000x64 .f32 0x00000000#32))
      (broadcastTo S5000x64 (shapeCast S1x64 v6 shapeCasts_S64_S1x64) broadcasts_S1x64_S5000x64) (ix2 p k)
      = (∑ k1 : Fin 64, v0 (ix2 p k1) * v3 (ix2 k1 k)) + v6 (ix1 k) := by
  rw [addf_apply, bias_row_at, shapeCast_self]
  exact congrArg (· + v6 (ix1 k)) (Cert.MatRead.matmul_row_col_apply dot_S5000x64_S64x64_S5000x64_1_0_0_1_n_n rfl rfl rfl rfl rfl rfl none
    (truncf .bf16 v0 bitsLt_bf16_f32) (truncf .bf16 v3 bitsLt_bf16_f32) p k)

/-- The second body's stored value at `(p, q)`: the two dense layers on row `p` of its block. -/
theorem pay1_at (v0 : Vec Ideal S5000x64 .f32) (v3 : Vec Ideal S64x64 .f32) (v6 : Vec Ideal S64 .f32)
    (v11 : Vec Ideal S64x64 .f32) (v14 : Vec Ideal S64 .f32) (p : Fin 5000) (q : Fin 64) :
    k1_pay1 v0 v3 v6 v11 v14 (ix2 p q)
      = (∑ k2 : Fin 64, ((∑ k1 : Fin 64, v0 (ix2 p k1) * v3 (ix2 k1 k2)) + v6 (ix1 k2)) * v11 (ix2 k2 q)) + v14 (ix1 q) := by
  unfold k1_pay1
  rw [addf_apply, bias_row_at]
  refine congrArg (· + v14 (ix1 q)) ?_
  refine (Cert.MatRead.matmul_row_col_apply dot_S5000x64_S64x64_S5000x64_1_0_0_1_n_n rfl rfl rfl rfl rfl rfl none _ _ p q).trans ?_
  refine Finset.sum_congr rfl fun k2 _ => ?_
  refine congrArg (· * v11 (ix2 k2 q)) ?_
  exact hidden_at v0 v3 v6 p k2

end Cert.KernelIdeal.Hand

end
-- ==== Proof.Spec.lean ====
/-
  What the program computes, stated over plain arrays of extended reals, index by index.

  A graph-convolution layer followed by two dense layers. The node features `x` (100000 × 128) are projected by the
  weights `W` (128 × 64); the projected rows are then mixed along the graph's edges (a normalised neighbour sum, the
  same chain of gathers and scatter-adds in both programs, kept here as one function that is never opened) and the
  layer's bias is added; the result `g` goes through `(g · w1 + b1) · w3 + b3`.

  Two functions are stated here: the projection `proj` and the two dense layers `mlp`. Every entry is a finite sum of
  products over the contracted axis; no algebraic law is needed to compare the two programs, only that both compute
  these same sums, so finiteness of the inputs is never used.
-/
import Idealize.ShloMosaic.PureOps.Ideal
import Idealize.ShloMosaic.Lib.ValueIdx

noncomputable section
open scoped BigOperators
open Idealize.ShloMosaic Idealize.ShloMosaic.ValueIdx

namespace Cert.Gcn

/-- Entry `(r, c)` of the projection: row `r` of the features against column `c` of the weights. -/
def projAt (x : (⟨2, ![100000, 128]⟩ : Shape).Idx → EReal) (W : (⟨2, ![128, 64]⟩ : Shape).Idx → EReal)
    (r : Fin 100000) (c : Fin 64) : EReal :=
  ∑ k : Fin 128, x (ix2 r k) * W (ix2 k c)

/-- The projection `x · W` as an array. -/
def proj (x : (⟨2, ![100000, 128]⟩ : Shape).Idx → EReal) (W : (⟨2, ![128, 64]⟩ : Shape).Idx → EReal) :
    (⟨2, ![100000, 64]⟩ : Shape).Idx → EReal :=
  fun i => projAt x W ⟨(i 0).val, (i 0).isLt⟩ ⟨(i 1).val, (i 1).isLt⟩

theorem proj_ix2 (x : (⟨2, ![100000, 128]⟩ : Shape).Idx → EReal) (W : (⟨2, ![128, 64]⟩ : Shape).Idx → EReal)
    (r : Fin 100000) (c : Fin 64) : proj x W (ix2 r c) = projAt x W r c := rfl

/-- Entry `(r, c)` of the first dense layer: row `r` of `g` against column `c` of `w1`, plus the bias. -/
def hiddenAt (g : (⟨2, ![100000, 64]⟩ : Shape).Idx → EReal) (w1 : (⟨2, ![64, 64]⟩ : Shape).Idx → EReal)
    (b1 : (⟨1, ![64]⟩ : Shape).Idx → EReal) (r : Fin 100000) (c : Fin 64) : EReal :=
  (∑ k : Fin 64, g (ix2 r k) * w1 (ix2 k c)) + b1 (ix1 c)

/-- Entry `(r, c)` of the second dense layer applied to the first. -/
def mlpAt (g : (⟨2, ![100000, 64]⟩ : Shape).Idx → EReal) (w1 : (⟨2, ![64, 64]⟩ : Shape).Idx → EReal)
    (b1 : (⟨1, ![64]⟩ : Shape).Idx → EReal) (w3 : (⟨2, ![64, 64]⟩ : Shape).Idx → EReal)
    (b3 : (⟨1, ![64]⟩ : Shape).Idx → EReal) (r : Fin 100000) (c : Fin 64) : EReal :=
  (∑ k : Fin 64, hiddenAt g w1 b1 r k * w3 (ix2 k c)) + b3 (ix1 c)

/-- The two dense layers `(g · w1 + b1) · w3 + b3` as an array. -/
def mlp (g : (⟨2, ![100000, 64]⟩ : Shape).Idx → EReal) (w1 : (⟨2, ![64, 64]⟩ : Shape).Idx → EReal)
    (b1 : (⟨1, ![64]⟩ : Shape).Idx → EReal) (w3 : (⟨2, ![64, 64]⟩ : Shape).Idx → EReal)
    (b3 : (⟨1, ![64]⟩ : Shape).Idx → EReal) : (⟨2, ![100000, 64]⟩ : Shape).Idx → EReal :=
  fun i => mlpAt g w1 b1 w3 b3 ⟨(i 0).val, (i 0).isLt⟩ ⟨(i 1).val, (i 1).isLt⟩

theorem mlp_ix2 (g : (⟨2, ![100000, 64]⟩ : Shape).Idx → EReal) (w1 : (⟨2, ![64, 64]⟩ : Shape).Idx → EReal)
    (b1 : (⟨1, ![64]⟩ : Shape).Idx → EReal) (w3 : (⟨2, ![64, 64]⟩ : Shape).Idx → EReal)
    (b3 : (⟨1, ![64]⟩ : Shape).Idx → EReal) (r : Fin 100000) (c : Fin 64) :
    mlp g w1 b1 w3 b3 (ix2 r c) = mlpAt g w1 b1 w3 b3 r c := rfl

end Cert.Gcn

end
-- ==== Proof.Region0.lean ====
/-
  The first pipelined region, from blocks to the whole array.

  The region walks the 100000 rows in 20 blocks of 5000. At point `t` its input windows hold rows
  `5000 t … 5000 t + 4999` of the features and the whole weight matrix, and it writes back rows `5000 t … 5000 t + 4999` of the
  output. Entry `(p, q)` of what point `t` writes is row `5000 t + p` of the features against column `q` of the weights:
  the block of the projection `Cert.Gcn.proj`. The 20 blocks tile the output (row `r` belongs to point `r / 5000`), so the
  output array ends as the projection of the arrays the region found.
-/
import proofs.«130672_j16157666968392_1_alg».proof.Proof.Gen.KernelIdeal.Frame
import proofs.«130672_j16157666968392_1_alg».proof.Proof.Payload
import proofs.«130672_j16157666968392_1_alg».proof.Proof.Spec
import Idealize.ShloMosaic.Lib.Pipeline.Value

set_option maxRecDepth 16384

noncomputable section
open scoped BigOperators
open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl

/-- The region's index maps over its 20 points: the feature and output windows move one block of rows per point, the
    weight window stays. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The feature window's block at point `t` is rows `5000 t …` of the feature array. -/
theorem iblk0_0_apply (c : Dev nD) (t : Fin cfg0.N) (x : S5000x128.Idx) (k : S100000x128.Idx)
    (hk0 : (k 0).val = 5000 * t.val + (x 0).val) (hk1 : (k 1).val = (x 1).val) :
    (iblk0 V c 0 t : Vec Ideal S5000x128 .f32) x = (V c main_arg0 : S100000x128.Idx → Elt Ideal .f32) k := by
  obtain ⟨e0, e1, -⟩ := idx0 t
  unfold iblk0
  rw [View.read_apply]
  show V c main_arg0 _ = V c main_arg0 _
  congr 1
  funext a
  apply Fin.ext
  match a with
  | ⟨0, _⟩ => show win0_0.index t 0 * 5000 + 1 * (x 0).val = (k 0).val; rw [e0, hk0]; omega
  | ⟨1, _⟩ => show win0_0.index t 1 * 128 + 1 * (x 1).val = (k 1).val; rw [e1, hk1]; omega

/-- The weight window's block at every point is the whole weight array. -/
theorem iblk0_1_apply (c : Dev nD) (t : Fin cfg0.N) (x : S128x64.Idx) :
    (iblk0 V c 1 t : Vec Ideal S128x64 .f32) x = (V c main_arg3 : S128x64.Idx → Elt Ideal .f32) x := by
  obtain ⟨-, -, e0, e1, -⟩ := idx0 t
  unfold iblk0
  rw [View.read_apply]
  show V c main_arg3 _ = V c main_arg3 _
  congr 1
  funext a
  apply Fin.ext
  match a with
  | ⟨0, _⟩ => show win0_1.index t 0 * 128 + 1 * (x 0).val = (x 0).val; rw [e0]; omega
  | ⟨1, _⟩ => show win0_1.index t 1 * 64 + 1 * (x 1).val = (x 1).val; rw [e1]; omega

/-- WHAT POINT `t` WRITES BACK is block `t` of the projection of the arrays the region found. -/
theorem flushed0 (c : Dev nD) (t : Fin cfg0.N) :
    (dat0 V c).flushed 2 t
      = ((cfg0.win 2).blk t).view.read (Elt Ideal) (Cert.Gcn.proj (V c main_arg0) (V c main_arg3)) := by
  show (cfg0.win 2).cut (grid0.coords t) ((dat0 V c).after 2 t) = _
  rw [after0_2]
  unfold out0_2
  rw [View.canon_unit_zero hz2]
  simp only [View.ld_unit_zero (S := S5000x128) hz2, View.ld_unit_zero (S := S128x64) hz2]
  obtain ⟨-, -, -, -, e0, e1⟩ := idx0 t
  funext j
  obtain ⟨p, q, rfl⟩ : ∃ (p : Fin 5000) (q : Fin 64), j = ix2 p q := ⟨j 0, j 1, eq_ix2 j⟩
  have ht : t.val < 20 := by have h := t.isLt; have hN : cfg0.N = 20 := N_0; omega
  have hemb : ((cfg0.win 2).blk t).view.emb (ix2 p q) = ix2 (⟨5000 * t.val + p.val, by omega⟩ : Fin 100000) q := by
    funext a
    apply Fin.ext
    match a with
    | ⟨0, _⟩ => show win0_2.index t 0 * 5000 + 1 * p.val = 5000 * t.val + p.val; rw [e0]; omega
    | ⟨1, _⟩ => show win0_2.index t 1 * 64 + 1 * q.val = q.val; rw [e1]; omega
  rw [View.read_apply, hemb, Cert.Gcn.proj_ix2]
  show k0_pay1 (iblk0 V c 0 t) (iblk0 V c 1 t) (ix2 p q) = _
  rw [pay0_at]
  unfold Cert.Gcn.projAt
  refine Finset.sum_congr rfl fun k _ => ?_
  rw [iblk0_0_apply V c t (ix2 p k) (ix2 (⟨5000 * t.val + p.val, by omega⟩ : Fin 100000) k) rfl rfl,
    iblk0_1_apply V c t (ix2 k q)]

/-- An index of the output array is in point `t`'s block iff its row is among the block's 5000 rows. -/
theorem mem_blk0 (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v0).slice (win0_2.rect t)).set ↔ _
  rw [View.set_slice_whole, Rect.mem_set_unit]
  exact Iff.rfl

/-- Every index of the output array is in the block of the point its row falls in. -/
theorem cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 20 := N_0
  refine ⟨⟨(i 0).val / 5000, by rw [hN]; omega⟩, flush0_2 _, ?_⟩
  rw [mem_blk0]
  obtain ⟨-, -, -, -, e0, e1⟩ := idx0 ⟨(i 0).val / 5000, by rw [hN]; omega⟩
  intro a
  match a with
  | ⟨0, _⟩ =>
    show win0_2.index _ (0 : Fin 2) * 5000 ≤ (i 0).val ∧ (i 0).val < win0_2.index _ (0 : Fin 2) * 5000 + 5000
    rw [e0]; show (i 0).val / 5000 * 5000 ≤ (i 0).val ∧ (i 0).val < (i 0).val / 5000 * 5000 + 5000; omega
  | ⟨1, _⟩ =>
    show win0_2.index _ (1 : Fin 2) * 64 ≤ (i 1).val ∧ (i 1).val < win0_2.index _ (1 : Fin 2) * 64 + 64
    rw [e1]; omega

/-- THE OUTPUT ARRAY after the region: the projection of the feature and weight arrays the region found. -/
theorem final0 (c : Dev nD) :
    (dat0 V c).arrAt 2 cfg0.N = Cert.Gcn.proj (V c main_arg0) (V c main_arg3) :=
  (dat0 V c).arrAt_eq_of_cover 2 (Cert.Gcn.proj (V c main_arg0) (V c main_arg3)) (fun t _ => flushed0 V c t) cover0

end Cert.KernelIdeal.Hand

end
-- ==== Proof.Region1.lean ====
/-
  The second pipelined region, from blocks to the whole array.

  The region walks the 100000 rows in 20 blocks of 5000. At point `t` its first input window holds rows
  `5000 t … 5000 t + 4999` of the aggregated features, the other four hold the two weight matrices and the two biases whole, and
  it writes back rows `5000 t … 5000 t + 4999` of the result. Entry `(p, q)` of what point `t` writes is the two dense layers on
  row `5000 t + p`: the block of `Cert.Gcn.mlp`. The 20 blocks tile the result, so the result array ends as the two dense
  layers of the arrays the region found.
-/
import proofs.«130672_j16157666968392_1_alg».proof.Proof.Gen.KernelIdeal.Frame
import proofs.«130672_j16157666968392_1_alg».proof.Proof.Payload
import proofs.«130672_j16157666968392_1_alg».proof.Proof.Spec
import Idealize.ShloMosaic.Lib.Pipeline.Value

set_option maxRecDepth 16384

noncomputable section
open scoped BigOperators
open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

theorem hz2' : (![0, 0] : Fin 2 → Nat) = fun _ => 0 := funext fun a => by fin_cases a <;> rfl
theorem hz1' : (![0] : Fin 1 → Nat) = fun _ => 0 := funext fun a => by fin_cases a; rfl

/-- The region's index maps over its 20 points: the first input window and the output window move one block of rows per
    point, the weight and bias windows stay. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- The first input window's block at point `t` is rows `5000 t …` of the aggregated features. -/
theorem iblk1_0_apply (c : Dev nD) (t : Fin cfg1.N) (x : S5000x64.Idx) (k : S100000x64.Idx)
    (hk0 : (k 0).val = 5000 * t.val + (x 0).val) (hk1 : (k 1).val = (x 1).val) :
    (iblk1 V c 0 t : Vec Ideal S5000x64 .f32) x = (V c main_v46 : S100000x64.Idx → Elt Ideal .f32) k := by
  obtain ⟨e0, e1, -⟩ := idx1 t
  unfold iblk1
  rw [View.read_apply]
  show V c main_v46 _ = V c main_v46 _
  congr 1
  funext a
  apply Fin.ext
  match a with
  | ⟨0, _⟩ => show win1_0.index t 0 * 5000 + 1 * (x 0).val = (k 0).val; rw [e0, hk0]; omega
  | ⟨1, _⟩ => show win1_0.index t 1 * 64 + 1 * (x 1).val = (k 1).val; rw [e1, hk1]; omega

/-- The first weight window's block at every point is the whole array. -/
theorem iblk1_1_apply (c : Dev nD) (t : Fin cfg1.N) (x : S64x64.Idx) :
    (iblk1 V c 1 t : Vec Ideal S64x64 .f32) x = (V c main_arg5 : S64x64.Idx → Elt Ideal .f32) x := by
  obtain ⟨-, -, e0, e1, -⟩ := idx1 t
  unfold iblk1
  rw [View.read_apply]
  show V c main_arg5 _ = V c main_arg5 _
  congr 1
  funext a
  apply Fin.ext
  match a with
  | ⟨0, _⟩ => show win1_1.index t 0 * 64 + 1 * (x 0).val = (x 0).val; rw [e0]; omega
  | ⟨1, _⟩ => show win1_1.index t 1 * 64 + 1 * (x 1).val = (x 1).val; rw [e1]; omega

/-- The first bias window's block at every point is the whole vector. -/
theorem iblk1_2_apply (c : Dev nD) (t : Fin cfg1.N) (x : S64.Idx) :
    (iblk1 V c 2 t : Vec Ideal S64 .f32) x = (V c main_arg6 : S64.Idx → Elt Ideal .f32) x := by
  obtain ⟨-, -, -, -, e0, -⟩ := idx1 t
  unfold iblk1
  rw [View.read_apply]
  show V c main_arg6 _ = V c main_arg6 _
  congr 1
  funext a
  apply Fin.ext
  match a with
  | ⟨0, _⟩ => show win1_2.index t 0 * 64 + 1 * (x 0).val = (x 0).val; rw [e0]; omega

/-- The second weight window's block at every point is the whole array. -/
theorem iblk1_3_apply (c : Dev nD) (t : Fin cfg1.N) (x : S64x64.Idx) :
    (iblk1 V c 3 t : Vec Ideal S64x64 .f32) x = (V c main_arg7 : S64x64.Idx → Elt Ideal .f32) x := by
  obtain ⟨-, -, -, -, -, e0, e1, -⟩ := idx1 t
  unfold iblk1
  rw [View.read_apply]
  show V c main_arg7 _ = V c main_arg7 _
  congr 1
  funext a
  apply Fin.ext
  match a with
  | ⟨0, _⟩ => show win1_3.index t 0 * 64 + 1 * (x 0).val = (x 0).val; rw [e0]; omega
  | ⟨1, _⟩ => show win1_3.index t 1 * 64 + 1 * (x 1).val = (x 1).val; rw [e1]; omega

/-- The second bias window's block at every point is the whole vector. -/
theorem iblk1_4_apply (c : Dev nD) (t : Fin cfg1.N) (x : S64.Idx) :
    (iblk1 V c 4 t : Vec Ideal S64 .f32) x = (V c main_arg8 : S64.Idx → Elt Ideal .f32) x := by
  obtain ⟨-, -, -, -, -, -, -, e0, -⟩ := idx1 t
  unfold iblk1
  rw [View.read_apply]
  show V c main_arg8 _ = V c main_arg8 _
  congr 1
  funext a
  apply Fin.ext
  match a with
  | ⟨0, _⟩ => show win1_4.index t 0 * 64 + 1 * (x 0).val = (x 0).val; rw [e0]; omega

/-- WHAT POINT `t` WRITES BACK is block `t` of the two dense layers of the arrays the region found. -/
theorem flushed1 (c : Dev nD) (t : Fin cfg1.N) :
    (dat1 V c).flushed 5 t
      = ((cfg1.win 5).blk t).view.read (Elt Ideal)
          (Cert.Gcn.mlp (V c main_v46) (V c main_arg5) (V c main_arg6) (V c main_arg7) (V c main_arg8)) := by
  show (cfg1.win 5).cut (grid1.coords t) ((dat1 V c).after 5 t) = _
  rw [after1_5]
  unfold out1_5
  rw [View.canon_unit_zero hz2']
  simp only [View.ld_unit_zero (S := S5000x64) hz2', View.ld_unit_zero (S := S64x64) hz2', View.ld_unit_zero (S := S64) hz1']
  obtain ⟨-, -, -, -, -, -, -, -, e0, e1⟩ := idx1 t
  funext j
  obtain ⟨p, q, rfl⟩ : ∃ (p : Fin 5000) (q : Fin 64), j = ix2 p q := ⟨j 0, j 1, eq_ix2 j⟩
  have ht : t.val < 20 := by have h := t.isLt; have hN : cfg1.N = 20 := N_1; omega
  have hemb : ((cfg1.win 5).blk t).view.emb (ix2 p q) = ix2 (⟨5000 * t.val + p.val, by omega⟩ : Fin 100000) q := by
    funext a
    apply Fin.ext
    match a with
    | ⟨0, _⟩ => show win1_5.index t 0 * 5000 + 1 * p.val = 5000 * t.val + p.val; rw [e0]; omega
    | ⟨1, _⟩ => show win1_5.index t 1 * 64 + 1 * q.val = q.val; rw [e1]; omega
  rw [View.read_apply, hemb, Cert.Gcn.mlp_ix2]
  show k1_pay1 (iblk1 V c 0 t) (iblk1 V c 1 t) (iblk1 V c 2 t) (iblk1 V c 3 t) (iblk1 V c 4 t) (ix2 p q) = _
  rw [pay1_at]
  unfold Cert.Gcn.mlpAt Cert.Gcn.hiddenAt
  rw [iblk1_4_apply V c t (ix1 q)]
  refine congrArg (· + (V c main_arg8 : S64.Idx → Elt Ideal .f32) (ix1 q)) (Finset.sum_congr rfl fun k2 _ => ?_)
  rw [iblk1_3_apply V c t (ix2 k2 q), iblk1_2_apply V c t (ix1 k2)]
  refine congrArg (fun z => (z + (V c main_arg6 : S64.Idx → Elt Ideal .f32) (ix1 k2)) * (V c main_arg7 : S64x64.Idx → Elt Ideal .f32) (ix2 k2 q))
    (Finset.sum_congr rfl fun k1 _ => ?_)
  rw [iblk1_0_apply V c t (ix2 p k1) (ix2 (⟨5000 * t.val + p.val, by omega⟩ : Fin 100000) k1) rfl rfl,
    iblk1_1_apply V c t (ix2 k1 k2)]

/-- An index of the result array is in point `t`'s block iff its row is among the block's 5000 rows. -/
theorem mem_blk1 (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v47).slice (win1_5.rect t)).set ↔ _
  rw [View.set_slice_whole, Rect.mem_set_unit]
  exact Iff.rfl

/-- Every index of the result array is in the block of the point its row falls in. -/
theorem cover1 (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  have hN : cfg1.N = 20 := N_1
  refine ⟨⟨(i 0).val / 5000, by rw [hN]; omega⟩, flush1_5 _, ?_⟩
  rw [mem_blk1]
  obtain ⟨-, -, -, -, -, -, -, -, e0, e1⟩ := idx1 ⟨(i 0).val / 5000, by rw [hN]; omega⟩
  intro a
  match a with
  | ⟨0, _⟩ =>
    show win1_5.index _ (0 : Fin 2) * 5000 ≤ (i 0).val ∧ (i 0).val < win1_5.index _ (0 : Fin 2) * 5000 + 5000
    rw [e0]; show (i 0).val / 5000 * 5000 ≤ (i 0).val ∧ (i 0).val < (i 0).val / 5000 * 5000 + 5000; omega
  | ⟨1, _⟩ =>
    show win1_5.index _ (1 : Fin 2) * 64 ≤ (i 1).val ∧ (i 1).val < win1_5.index _ (1 : Fin 2) * 64 + 64
    rw [e1]; omega

/-- THE RESULT ARRAY after the region: the two dense layers of the arrays the region found. -/
theorem final1 (c : Dev nD) :
    (dat1 V c).arrAt 5 cfg1.N
      = Cert.Gcn.mlp (V c main_v46) (V c main_arg5) (V c main_arg6) (V c main_arg7) (V c main_arg8) :=
  (dat1 V c).arrAt_eq_of_cover 5 (Cert.Gcn.mlp (V c main_v46) (V c main_arg5) (V c main_arg6) (V c main_arg7) (V c main_arg8))
    (fun t _ => flushed1 V c t) cover1

end Cert.KernelIdeal.Hand

end
-- ==== Proof.KernelValue.lean ====
/-
  The idealized kernel program's result as the specification's functions of its arguments.

  Walking the boundaries of the run backwards: the result buffer is the second region's output array, which is the two
  dense layers of that region's input arrays; its first input array is the aggregation chain of the first region's output
  array, the edge list and the bias; the first region's output array is the projection of the features by the weights;
  and every argument is, wherever it is read, what it was at launch. So the result is
  `mlp (agg (proj x W) e b) w1 b1 w3 b3` of the launch contents.
-/
import proofs.«130672_j16157666968392_1_alg».proof.Proof.KernelRun
import proofs.«130672_j16157666968392_1_alg».proof.Proof.KernelHost
import proofs.«130672_j16157666968392_1_alg».proof.Proof.Region0
import proofs.«130672_j16157666968392_1_alg».proof.Proof.Region1

set_option maxRecDepth 16384

noncomputable section

open Idealize.ShloMosaic Idealize.ShloMosaic.TcCoe Idealize.SL.Sem

namespace Cert.KernelIdeal.Hand

open Cert.KernelIdeal Cert.KernelIdeal.Gen

variable (m : (ℓ : Loc nD τ sig) → Buf (Elt Ideal) ℓ) (ρ : Dev nD → PrngReg)

/-- The program's result on core `c`, from the launch contents of its arguments. -/
def result (c : Dev nD) : Buf (Elt Ideal) ((c.tc : Thread nD τ).loc main_v47) :=
  Cert.Gcn.mlp
    (Cert.Gcn.agg (F := Ideal)
      (Cert.Gcn.proj (m ((c.tc : Thread nD τ).loc main_arg0)) (m ((c.tc : Thread nD τ).loc main_arg3)))
      (m ((c.tc : Thread nD τ).loc main_arg1)) (m ((c.tc : Thread nD τ).loc main_arg4)))
    (m ((c.tc : Thread nD τ).loc main_arg5)) (m ((c.tc : Thread nD τ).loc main_arg6))
    (m ((c.tc : Thread nD τ).loc main_arg7)) (m ((c.tc : Thread nD τ).loc main_arg8))

/-- The first region's output array is the projection of the launch features by the launch weights. -/
theorem v0_value (c : Dev nD) :
    W1 m ρ c (Proc.devRef .tc main_v0)
      = Cert.Gcn.proj (m ((c.tc : Thread nD τ).loc main_arg0)) (m ((c.tc : Thread nD τ).loc main_arg3)) :=
  (W1_arr m ρ c 2).trans (final0 (V0 m ρ) c)

/-- The second region's first input array is the aggregation chain of that projection, the edge list and the bias. -/
theorem v46_value (c : Dev nD) :
    W4 m ρ c (Proc.devRef .tc main_v46)
      = Cert.Gcn.agg (F := Ideal)
          (Cert.Gcn.proj (m ((c.tc : Thread nD τ).loc main_arg0)) (m ((c.tc : Thread nD τ).loc main_arg3)))
          (m ((c.tc : Thread nD τ).loc main_arg1)) (m ((c.tc : Thread nD τ).loc main_arg4)) := by
  rw [host_agg, v0_value, W1_arg1, W1_arg4]

/-- THE RESULT: the last boundary's contents at the result buffer are `result`. -/
theorem W5_result (c : Dev nD) : W5 m ρ c (Proc.devRef .tc main_v47) = result m c := by
  refine (W5_arr m ρ c 5).trans ((final1 (V4 m ρ) c).trans ?_)
  show Cert.Gcn.mlp (W4 m ρ c (Proc.devRef .tc main_v46)) (W4 m ρ c (Proc.devRef .tc main_arg5)) (W4 m ρ c (Proc.devRef .tc main_arg6))
      (W4 m ρ c (Proc.devRef .tc main_arg7)) (W4 m ρ c (Proc.devRef .tc main_arg8)) = _
  rw [v46_value, W4_arg5, W4_arg6, W4_arg7, W4_arg8]
  rfl

/-- The run with the result named: every weakly fair execution terminates, nothing faulting, the result buffer at
    `result` and every argument as launched. -/
theorem run : θ_run defs (onTc (τ := τ) (main (F := Ideal))) ⟨m, fun _ => 0, ρ⟩ (fun r => ∀ c : Dev nD,
      r.2.mem ((c.tc : Thread nD τ).loc main_v47) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c).1.trans (W5_result m ρ c), (h c).2⟩) (run_result m ρ)

end Cert.KernelIdeal.Hand

end
-- ==== Proof.RefSide.lean ====
/-
  The reference program's result as the specification's functions of its arguments.

  The reference multiplies features by weights with one whole matrix product, runs the shared aggregation chain, and
  applies the two dense layers as whole matrix products with broadcast biases. Read at an entry `(r, c)`, each matrix
  product is the sum over its one contracted axis of the products of the entries, and a bias broadcast over the rows
  reads the bias at `c`. So its projection is `Cert.Gcn.proj` and its last five operations are `Cert.Gcn.mlp` of whatever
  the aggregation chain produced.
-/
import proofs.«130672_j16157666968392_1_alg».proof.Proof.RefReadP
import proofs.«130672_j16157666968392_1_alg».proof.Proof.Agg
import proofs.«130672_j16157666968392_1_alg».proof.Proof.Spec

noncomputable section
open scoped BigOperators
open Idealize.ShloMosaic Idealize.ShloMosaic.TcCoe Idealize.ShloMosaic.ValueIdx

namespace Cert.Gcn

open Cert.ReferenceIdeal Cert.ReferenceIdeal.Gen Cert.ReferenceIdeal.ReadP

/-- The reference's matrix product of features and weights is the projection. -/
theorem ref_proj (x0 : (⟨S100000x128, .f32⟩ : BufTy).Contents (Elt Ideal)) (x3 : (⟨S128x64, .f32⟩ : BufTy).Contents (Elt Ideal)) :
    val_main_v30 (F := Ideal) x0 x3 = proj x0 x3 := by
  funext i
  obtain ⟨r, c, rfl⟩ : ∃ (r : Fin 100000) (c : Fin 64), i = ix2 r c := ⟨i 0, i 1, eq_ix2 i⟩
  rw [val_main_v30_apply, proj_ix2]
  unfold projAt
  refine Finset.sum_congr rfl fun k _ => ?_
  have el : lidx_main_v30 (ix2 r c) k = ix2 r k := funext fun a => by match a with | ⟨0, _⟩ => rfl | ⟨1, _⟩ => rfl
  have er : ridx_main_v30 (ix2 r c) k = ix2 k c := funext fun a => by match a with | ⟨0, _⟩ => rfl | ⟨1, _⟩ => rfl
  rw [el, er]

/-- A bias broadcast over the rows (the first dense layer's), read at `(r, k)`, is the bias at `k`. -/
theorem ref_bias1 (x6 : (⟨S64, .f32⟩ : BufTy).Contents (Elt Ideal)) (r : Fin 100000) (k : Fin 64) :
    val_main_v49 (F := Ideal) x6 (ix2 r k) = x6 (ix1 k) := by
  rw [val_main_v49_apply, val_main_v48_apply]
  exact congrArg x6 (funext fun a => by match a with | ⟨0, _⟩ => rfl)

/-- A bias broadcast over the rows (the second dense layer's), read at `(r, c)`, is the bias at `c`. -/
theorem ref_bias3 (x8 : (⟨S64, .f32⟩ : BufTy).Contents (Elt Ideal)) (r : Fin 100000) (c : Fin 64) :
    val_main_v53 (F := Ideal) x8 (ix2 r c) = x8 (ix1 c) := by
  rw [val_main_v53_apply, val_main_v52_apply]
  exact congrArg x8 (funext fun a => by match a with | ⟨0, _⟩ => rfl)

/-- The reference's first dense layer at `(r, k)`. -/
theorem ref_hidden (x0 : (⟨S100000x128, .f32⟩ : BufTy).Contents (Elt Ideal)) (x1 : (⟨S2x1200000, .i32⟩ : BufTy).Contents (Elt Ideal))
    (x3 : (⟨S128x64, .f32⟩ : BufTy).Contents (Elt Ideal)) (x4 : (⟨S64, .f32⟩ : BufTy).Contents (Elt Ideal))
    (x5 : (⟨S64x64, .f32⟩ : BufTy).Contents (Elt Ideal)) (x6 : (⟨S64, .f32⟩ : BufTy).Contents (Elt Ideal)) (r : Fin 100000) (k : Fin 64) :
    val_main_v50 (F := Ideal) x0 x1 x3 x4 x5 x6 (ix2 r k) = hiddenAt (val_main_v46 (F := Ideal) x0 x1 x3 x4) x5 x6 r k := by
  rw [val_main_v50_apply, val_main_v47_apply, ref_bias1]
  unfold hiddenAt
  refine congrArg (· + x6 (ix1 k)) (Finset.sum_congr rfl fun k1 _ => ?_)
  have el : lidx_main_v47 (ix2 r k) k1 = ix2 r k1 := funext fun a => by match a with | ⟨0, _⟩ => rfl | ⟨1, _⟩ => rfl
  have er : ridx_main_v47 (ix2 r k) k1 = ix2 k1 k := funext fun a => by match a with | ⟨0, _⟩ => rfl | ⟨1, _⟩ => rfl
  rw [el, er]

/-- The reference's last stage is the two dense layers applied to the stage the aggregation chain ends in. -/
theorem ref_mlp (x0 : (⟨S100000x128, .f32⟩ : BufTy).Contents (Elt Ideal)) (x1 : (⟨S2x1200000, .i32⟩ : BufTy).Contents (Elt Ideal))
    (x3 : (⟨S128x64, .f32⟩ : BufTy).Contents (Elt Ideal)) (x4 : (⟨S64, .f32⟩ : BufTy).Contents (Elt Ideal))
    (x5 : (⟨S64x64, .f32⟩ : BufTy).Contents (Elt Ideal)) (x6 : (⟨S64, .f32⟩ : BufTy).Contents (Elt Ideal))
    (x7 : (⟨S64x64, .f32⟩ : BufTy).Contents (Elt Ideal)) (x8 : (⟨S64, .f32⟩ : BufTy).Contents (Elt Ideal)) :
    val_main_v54 (F := Ideal) x0 x1 x3 x4 x5 x6 x7 x8 = mlp (val_main_v46 (F := Ideal) x0 x1 x3 x4) x5 x6 x7 x8 := by
  funext i
  obtain ⟨r, c, rfl⟩ : ∃ (r : Fin 100000) (c : Fin 64), i = ix2 r c := ⟨i 0, i 1, eq_ix2 i⟩
  rw [val_main_v54_apply, val_main_v51_apply, ref_bias3, mlp_ix2]
  unfold mlpAt
  refine congrArg (· + x8 (ix1 c)) (Finset.sum_congr rfl fun k _ => ?_)
  have el : lidx_main_v51 (ix2 r c) k = ix2 r k := funext fun a => by match a with | ⟨0, _⟩ => rfl | ⟨1, _⟩ => rfl
  have er : ridx_main_v51 (ix2 r c) k = ix2 k c := funext fun a => by match a with | ⟨0, _⟩ => rfl | ⟨1, _⟩ => rfl
  rw [el, er, ref_hidden]

/-- THE REFERENCE'S RESULT: the two dense layers of the aggregation of the projection. -/
theorem ref_result (x0 : (⟨S100000x128, .f32⟩ : BufTy).Contents (Elt Ideal)) (x1 : (⟨S2x1200000, .i32⟩ : BufTy).Contents (Elt Ideal))
    (x3 : (⟨S128x64, .f32⟩ : BufTy).Contents (Elt Ideal)) (x4 : (⟨S64, .f32⟩ : BufTy).Contents (Elt Ideal))
    (x5 : (⟨S64x64, .f32⟩ : BufTy).Contents (Elt Ideal)) (x6 : (⟨S64, .f32⟩ : BufTy).Contents (Elt Ideal))
    (x7 : (⟨S64x64, .f32⟩ : BufTy).Contents (Elt Ideal)) (x8 : (⟨S64, .f32⟩ : BufTy).Contents (Elt Ideal)) :
    val_main_v54 (F := Ideal) x0 x1 x3 x4 x5 x6 x7 x8 = mlp (agg (proj x0 x3) x1 x4) x5 x6 x7 x8 := by
  rw [ref_mlp, ref_agg, ref_proj]

end Cert.Gcn

end
-- ==== Proof.lean ====
/- The proof of `Cert.Claim` for a graph-convolution layer followed by two dense layers.

   The kernel program projects the node features by a pipelined matrix product over 20 blocks of 5000 rows, runs the
   neighbour aggregation on the host, and applies both dense layers in a second pipelined region over the same blocks; the
   reference does the projection and both layers as whole matrix products around the same aggregation. Over the extended
   reals both results are `(agg(x · W) · w1 + b1) · w3 + b3` entry by entry: every matrix product is the plain sum over its
   contracted axis (the kernel's starts from a zero accumulator, and its changes of float format are the identity), the
   blocks tile the rows, and the aggregation chain is the same function on both sides, applied to equal arguments. No
   distributive or cancellation law is used, so the precondition (finite inputs) is never opened.

   The three frames: the two kernel programs' are the generated frame certificates; the reference's is its run with the
   result dropped. `preserves` is trivial (the ideal pass rewrote nothing). `algebraic`: Proof/KernelValue.lean names the
   kernel's result, Proof/RefSide.lean the reference's, and the arguments agree by hypothesis. -/
import proofs.«130672_j16157666968392_1_alg».proof.Defs
import proofs.«130672_j16157666968392_1_alg».proof.Proof.Gen.Kernel
import proofs.«130672_j16157666968392_1_alg».proof.Proof.Gen.Kernel.Skeleton
import proofs.«130672_j16157666968392_1_alg».proof.Proof.Gen.Kernel.Launch
import proofs.«130672_j16157666968392_1_alg».proof.Proof.Gen.Kernel.Points
import proofs.«130672_j16157666968392_1_alg».proof.Proof.Gen.Kernel.Frame
import proofs.«130672_j16157666968392_1_alg».proof.Proof.Gen.KernelIdeal
import proofs.«130672_j16157666968392_1_alg».proof.Proof.Gen.KernelIdeal.Skeleton
import proofs.«130672_j16157666968392_1_alg».proof.Proof.Gen.KernelIdeal.Launch
import proofs.«130672_j16157666968392_1_alg».proof.Proof.Gen.KernelIdeal.Points
import proofs.«130672_j16157666968392_1_alg».proof.Proof.Gen.KernelIdeal.Frame
import proofs.«130672_j16157666968392_1_alg».proof.Proof.Gen.ReferenceIdeal
import proofs.«130672_j16157666968392_1_alg».proof.Proof.Gen.Pre_finite_inputs
import proofs.«130672_j16157666968392_1_alg».proof.Proof.RefRunP
import proofs.«130672_j16157666968392_1_alg».proof.Proof.RefReadP
import proofs.«130672_j16157666968392_1_alg».proof.Proof.KernelValue
import proofs.«130672_j16157666968392_1_alg».proof.Proof.RefSide
import Idealize.ShloMosaic.Adequacy
import Idealize.ShloMosaic.Init

noncomputable section

namespace Cert.Proof

open Idealize.ShloMosaic Idealize.SL.Sem Cert.Kernel

/-- The word-level kernel program runs and leaves its arguments unchanged: the generated frame. -/
theorem frame_k : Cert.frame_Kernel := fun m ρ _ => Cert.Kernel.Gen.frame m ρ

/-- The idealized kernel program runs and leaves its arguments unchanged: the generated frame. -/
theorem frame_ki : Cert.frame_KernelIdeal := fun m ρ _ => Cert.KernelIdeal.Gen.frame m ρ

/-- The idealized reference runs and leaves its arguments unchanged: its run, the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- Both idealized programs end with the result buffer at `(agg(x · W) · w1 + b1) · w3 + b3` of arguments that agree. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.ValueP.run (F := Ideal) m' ρ')
  obtain ⟨a0, a1, -, a3, a4, a5, a6, a7, a8⟩ := hagree c
  rw [Cert.ReferenceIdeal.ReadP.val_main_v54_eq, Cert.Gcn.ref_result, a0, a1, a3, a4, a5, a6, a7, a8]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
